-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x512x64 : Shape := ⟨3, ![4096, 512, 64]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x512x64 : S_.BroadcastsInDim S4096x512x64 (![] : Fin 0 → Fin S4096x512x64.rank)
  reducesTo_S4096x512x64_S_d0_1_2 : S4096x512x64.ReducesTo [0, 1, 2] S_

variable [Facts]

def fn {F : FTy → Type} [FloatOps F] (main_arg0 : FVec F S4096x512 .f32) (main_arg1 : FVec F S4096x512x64 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512x64 .f32 := Host.absf main_arg1
  let main_cst_0 : FVec F S_ .f32 := constant S_ .f32 0x7F800000#32
  let main_v5 : FVec F S4096x512x64 .f32 := broadcastInDim S4096x512x64 ![] bcast_S_S4096x512x64 main_cst_0
  let main_v6 : IVec S4096x512x64 1 := cmpf .olt main_v4 main_v5
  let main_c_1 : IVec S_ 1 := constantI S_ 1 1#1
  let main_v7 : IVec S_ 1 := (fun x v => Host.reduce IntOp.andi x v reducesTo_S4096x512x64_S_d0_1_2 h_S_) main_v6 main_c_1
  let main_v8 : IVec S_ 1 := andi main_v3 main_v7
  main_v8
-- ==== Kernel.lean ====
abbrev S4096x512 : Shape := ⟨2, ![4096, 512]⟩
abbrev S4096x512x64 : Shape := ⟨3, ![4096, 512, 64]⟩
abbrev S128x128 : Shape := ⟨2, ![128, 128]⟩
abbrev S128x128x64 : Shape := ⟨3, ![128, 128, 64]⟩
abbrev S128x128x1 : Shape := ⟨3, ![128, 128, 1]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4096x512x64, .f32⟩
  | .hbm, ⟨2, _⟩ => ⟨S4096x512x64, .f32⟩
  | .local _ .vmem, ⟨0, _⟩ => ⟨S128x128, .f32⟩
  | .local _ .vmem, ⟨1, _⟩ => ⟨S128x128, .f32⟩
  | .local _ .vmem, ⟨2, _⟩ => ⟨S128x128x64, .f32⟩
  | .local _ .vmem, ⟨3, _⟩ => ⟨S128x128x64, .f32⟩
  | .local _ .vmem, ⟨4, _⟩ => ⟨S128x128x64, .f32⟩
  | .local _ .vmem, ⟨5, _⟩ => ⟨S128x128x64, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S128x128x64_S128x128x64_0_0_0 : ∀ a, (![0, 0, 0] : Fin 3 → Nat) a + S128x128x64.size a ≤ S128x128x64.size a
  h_S128x128x64 : 0 < S128x128x64.numel
  inb_S128x128_S128x128_0_0 : ∀ a, (![0, 0] : Fin 2 → Nat) a + S128x128.size a ≤ S128x128.size a
  h_S128x128 : 0 < S128x128.numel
  shapeCasts_S128x128_S128x128x1 : S128x128.ShapeCasts S128x128x1
  broadcasts_S128x128x1_S128x128x64 : S128x128x1.Broadcasts S128x128x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S4096x512.size a
  hwx0_0 : ∀ i : grid0.Coords, EltTy.bits .f32 = 32 ∨ (Rect.block (s := S4096x512) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128x64.size a ≤ S4096x512x64.size a
  hwx0_1 : ∀ i : grid0.Coords, EltTy.bits .f32 = 32 ∨ (Rect.block (s := S4096x512x64) S128x128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128x64.size a ≤ S4096x512x64.size a
  hwx0_2 : ∀ i : grid0.Coords, EltTy.bits .f32 = 32 ∨ (Rect.block (s := S4096x512x64) S128x128x64.size (cc0_transform_2 i) (hinb0_2 i)).WholeWords (EltTy.packing .f32)

variable [Facts₀]

abbrev win0_0 : Pipeline.Window sig grid0 :=
  Pipeline.Window.ofSpec (Memref.whole main_arg0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x512 : Shape := ⟨2, ![4096, 512]⟩
abbrev S4096x512x64 : Shape := ⟨3, ![4096, 512, 64]⟩
abbrev S4096x512x1 : Shape := ⟨3, ![4096, 512, 1]⟩

abbrev nBuf : Space → Nat
  | .hbm => 5
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512x64, .f32⟩
  | .hbm, ⟨2, _⟩ => ⟨S4096x512x1, .f32⟩
  | .hbm, ⟨3, _⟩ => ⟨S4096x512x64, .f32⟩
  | .hbm, ⟨4, _⟩ => ⟨S4096x512x64, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  bcast_S4096x512_S4096x512x1_0_1 : S4096x512.BroadcastsInDim S4096x512x1 (![0, 1] : Fin 2 → Fin S4096x512x1.rank)
  bcast_S4096x512x1_S4096x512x64_0_1_2 : S4096x512x1.BroadcastsInDim S4096x512x64 (![0, 1, 2] : Fin 3 → Fin S4096x512x64.rank)

variable [Facts₀]

class Facts : Prop extends Facts₀ where

variable [Facts]
-- ==== Proof.Scaled.lean ====
/-
  The function both programs compute. Given one scalar for each of 4096 × 512 positions and, at each position, a
  vector of 64 numbers, every number of the vector at position (b, i) is multiplied by the scalar at (b, i):

      scaled x C (b, i, e) = C (b, i, e) · x (b, i).

  The product is written with the vector's entry on the left and the scalar on the right, which is how both programs
  take it. So the statement is about WHICH two numbers meet in each product, not about the numbers: it holds for any
  reading of the floating-point multiplication and needs no fact about the inputs.
-/
import Idealize.ShloMosaic.Lib.ValueIdx

noncomputable section

namespace Cert.EmbedScale

open Idealize.ShloMosaic Idealize.ShloMosaic.ValueIdx

/-- The positions: 4096 rows of 512. -/
abbrev Scalars : Shape := ⟨2, ![4096, 512]⟩
/-- The positions, each with its 64 vector entries. -/
abbrev Embeds : Shape := ⟨3, ![4096, 512, 64]⟩

variable {F : FTy → Type} [FloatOps F]

/-- The position an entry index belongs to: its first two coordinates. -/
abbrev position (i : Embeds.Idx) : Scalars.Idx := ix2 (i 0) (i 1)

/-- Every vector entry times the scalar of its position. -/
def scaled (x : Vec F Scalars .f32) (C : Vec F Embeds .f32) : Vec F Embeds .f32 :=
  fun i => FloatOps.mulf (C i) (x (position i))

/-- `scaled` at an index, unfolded. -/
theorem scaled_apply (x : Vec F Scalars .f32) (C : Vec F Embeds .f32) (i : Embeds.Idx) :
    scaled x C i = FloatOps.mulf (C i) (x (position i)) := rfl

end Cert.EmbedScale

end
-- ==== Proof.RefScaled.lean ====
/-
  The reference computes `scaled`. Its three host operations are: spread the scalars x[b, i] to x'[b, i, 0], spread
  those along the last axis to x''[b, i, e], and multiply the vectors by x'' entry by entry. Read at an index
  (b, i, e): the product is C(b, i, e) · x''(b, i, e); x''(b, i, e) is x'(b, i, 0); and x'(b, i, 0) is x(b, i). The two
  spreading steps compose to "forget the last coordinate", which is `position`.
-/
import proofs.«146885_j23141283791086_2_alg».proof.Proof.Gen.ReferenceIdeal.Read
import proofs.«146885_j23141283791086_2_alg».proof.Proof.Scaled

noncomputable section

namespace Cert.EmbedScale.Reference

open Idealize.ShloMosaic Idealize.ShloMosaic.ValueIdx Cert.EmbedScale
open Cert.ReferenceIdeal Cert.ReferenceIdeal.Read

variable {F : FTy → Type} [FloatOps F]

/-- Undoing the two spreading steps one after the other keeps the first two coordinates of an index. -/
theorem spread_twice (i : S4096x512x64.Idx) : idx_main_v0 (idx_main_v1 i) = position i := by
  funext a
  match a with
  | ⟨0, _⟩ => rfl
  | ⟨1, _⟩ => rfl

/-- The reference's product of the vectors with the twice-spread scalars is `scaled`, entry by entry. -/
theorem result_eq (x : Vec F S4096x512 .f32) (C : Vec F S4096x512x64 .f32) :
    val_main_v2 (F := F) x C = scaled x C := by
  funext i
  rw [val_main_v2_apply, val_main_v1_apply, val_main_v0_apply, spread_twice, scaled_apply]

end Cert.EmbedScale.Reference

end
-- ==== Proof.BlockScaled.lean ====
/-
  What the kernel's body leaves in its output block. The body loads the block of vectors (128 × 128 positions, 64
  entries each) and the block of scalars (128 × 128), gives the scalars a trailing axis of length one, spreads them
  along it to 64 copies, multiplies entry by entry and stores the product over the whole output block. Read at a block
  index (r, s, e) that is

      vectors (r, s, e) · scalars (r, s):

  the body is `scaled` in miniature, on one block.
-/
import proofs.«146885_j23141283791086_2_alg».proof.Proof.Gen.KernelIdeal.Value
import Idealize.ShloMosaic.Lib.ValueIdx

noncomputable section

namespace Cert.EmbedScale.Kernel

open Idealize.ShloMosaic Idealize.ShloMosaic.ValueIdx
open Cert.KernelIdeal Cert.KernelIdeal.Gen

variable {F : FTy → Type} [FloatOps F]

/-- The body's loads and its store start at the block's origin (three axes). -/
theorem origin3 : (![0, 0, 0] : Fin 3 → Nat) = fun _ => 0 := funext fun a => by fin_cases a <;> rfl
/-- The same for the scalars' two axes. -/
theorem origin2 : (![0, 0] : Fin 2 → Nat) = fun _ => 0 := funext fun a => by fin_cases a <;> rfl

/-- The output block after the body, at block index (r, s, e): the vectors' entry there times the scalar at (r, s).
    (The one store covers the block, so the block is the store's payload; the payload's spread scalars at (r, s, e)
    are the scalar at (r, s); both loads read their whole block from its origin.) -/
theorem block_product (scalars : Vec F S128x128 .f32) (vectors : Vec F S128x128x64 .f32)
    (r s : Fin 128) (e : Fin 64) :
    out0_2 scalars vectors (ix3 r s e) = FloatOps.mulf (vectors (ix3 r s e)) (scalars (ix2 r s)) := by
  unfold out0_2
  rw [Cert.KernelIdeal.Value.canon2_eq]
  show FloatOps.mulf (View.ld vectors r0_0 (Cert.KernelIdeal.Value.ix2_0 (ix3 r s e)))
      (View.ld scalars r0_1 (Cert.KernelIdeal.Value.ix2_1 (ix3 r s e))) = _
  rw [show View.ld vectors r0_0 = vectors from View.ld_unit_zero origin3 _ vectors,
    show View.ld scalars r0_1 = scalars from View.ld_unit_zero origin2 _ scalars]
  have e0 : Cert.KernelIdeal.Value.ix2_0 (ix3 r s e) = ix3 r s e := by
    funext a
    match a with
    | ⟨0, _⟩ => rfl
    | ⟨1, _⟩ => rfl
    | ⟨2, _⟩ => rfl
  have e1 : Cert.KernelIdeal.Value.ix2_1 (ix3 r s e) = ix2 r s := by
    funext a
    match a with
    | ⟨0, _⟩ => rfl
    | ⟨1, _⟩ => rfl
  rw [e0, e1]

end Cert.EmbedScale.Kernel

end
-- ==== Proof.ArrayScaled.lean ====
/-
  From blocks to the whole array. The grid has 32 × 4 points; point (p, q) works on block (p, q, 0) of the output — rows
  128p … 128p + 127, columns 128q … 128q + 127, all 64 entries — and on the blocks of the two inputs with the same
  first two block coordinates. So entry (r, s, e) of the block a point reads is entry (128p + r, 128q + s, e) of the
  array, for the vectors and the output alike, and the scalar under it is entry (128p + r, 128q + s) of the scalars:
  what the point writes back is exactly its block of `scaled` of the two argument arrays. The 128 blocks tile the
  output (index (b, i, e) lies in the block of point (b / 128, i / 128)), so after the run the output array is `scaled`
  of the arguments.
-/
import proofs.«146885_j23141283791086_2_alg».proof.Proof.Gen.KernelIdeal.Value
import proofs.«146885_j23141283791086_2_alg».proof.Proof.Scaled
import proofs.«146885_j23141283791086_2_alg».proof.Proof.BlockScaled
import Idealize.ShloMosaic.Lib.Pipeline.Value

noncomputable section

namespace Cert.EmbedScale.Kernel

open Idealize.ShloMosaic Idealize.ShloMosaic.TcCoe Idealize.ShloMosaic.ValueIdx Idealize.SL.Sem
open Idealize.ShloMosaic.Pipeline (Dat)
open Cert.KernelIdeal Cert.KernelIdeal.Gen Cert.EmbedScale

variable {F : FTy → Type} [FloatOps F]
variable (m : (ℓ : Loc nD τ sig) → Buf (Elt F) ℓ) (ρ : Dev nD → PrngReg)

/-- At every grid point the two input blocks have the output block's coordinates (the scalars' on their two axes, the
    vectors' on all three), and the output's block coordinates are at most 31, at most 3, and 0: checked point by
    point over the 128 points. -/
theorem same_block : ∀ t : Fin cfg0.N,
    win0_0.index t (0 : Fin 2) = win0_2.index t (0 : Fin 3)
    ∧ win0_0.index t (1 : Fin 2) = win0_2.index t (1 : Fin 3)
    ∧ win0_1.index t (0 : Fin 3) = win0_2.index t (0 : Fin 3)
    ∧ win0_1.index t (1 : Fin 3) = win0_2.index t (1 : Fin 3)
    ∧ win0_1.index t (2 : Fin 3) = win0_2.index t (2 : Fin 3)
    ∧ win0_2.index t (0 : Fin 3) ≤ 31
    ∧ win0_2.index t (1 : Fin 3) ≤ 3
    ∧ win0_2.index t (2 : Fin 3) = 0 :=
  (by decide +kernel : ∀ t : Fin grid0.N, _)

/-- Every block (p, q, 0) with p < 32 and q < 4 is some grid point's output block. -/
theorem every_block : ∀ (p : Fin 32) (q : Fin 4), ∃ t : Fin cfg0.N, win0_2.index t = ![p.val, q.val, 0] :=
  (by decide +kernel : ∀ (p : Fin 32) (q : Fin 4), ∃ t : Fin grid0.N, win0_2.index t = ![p.val, q.val, 0])

/-- What grid point `t` writes back is its block of `scaled` of the argument arrays. -/
theorem flushed_eq (c : Dev nD) (t : Fin cfg0.N) :
    (dats m 0 c).flushed 2 t
      = ((cfg0.win 2).blk t).view.read (Elt F) (scaled (V m c main_arg0) (V m c main_arg1)) := by
  rw [Cert.KernelIdeal.Value.flushed2]
  obtain ⟨e0, e1, e2, e3, e4, -, -, -⟩ := same_block t
  funext j
  obtain ⟨r, s, e, rfl⟩ : ∃ (r s : Fin 128) (e : Fin 64), j = ix3 r s e := ⟨j 0, j 1, j 2, eq_ix3 j⟩
  show out0_2 (iblk m c 0 t) (iblk m c 1 t) (ix3 r s e)
      = scaled (V m c main_arg0) (V m c main_arg1) (((cfg0.win 2).blk t).view.emb (ix3 r s e))
  refine (block_product (iblk m c 0 t) (iblk m c 1 t) r s e).trans ?_
  show FloatOps.mulf (V m c main_arg1 (((cfg0.win 1).blk t).view.emb (ix3 r s e)))
        (V m c main_arg0 (((cfg0.win 0).blk t).view.emb (ix2 r s)))
      = FloatOps.mulf (V m c main_arg1 (((cfg0.win 2).blk t).view.emb (ix3 r s e)))
        (V m c main_arg0 (position (((cfg0.win 2).blk t).view.emb (ix3 r s e))))
  -- the vectors' block and the output's block sit at the same place
  have hvec : ((cfg0.win 1).blk t).view.emb (ix3 r s e) = ((cfg0.win 2).blk t).view.emb (ix3 r s e) := by
    funext a; apply Fin.ext
    match a with
    | ⟨0, _⟩ =>
      show win0_1.index t (0 : Fin 3) * 128 + 1 * r.val = win0_2.index t (0 : Fin 3) * 128 + 1 * r.val
      omega
    | ⟨1, _⟩ =>
      show win0_1.index t (1 : Fin 3) * 128 + 1 * s.val = win0_2.index t (1 : Fin 3) * 128 + 1 * s.val
      omega
    | ⟨2, _⟩ =>
      show win0_1.index t (2 : Fin 3) * 64 + 1 * e.val = win0_2.index t (2 : Fin 3) * 64 + 1 * e.val
      omega
  -- and the scalars' block sits under them
  have hsc : ((cfg0.win 0).blk t).view.emb (ix2 r s)
      = position (((cfg0.win 2).blk t).view.emb (ix3 r s e)) := by
    funext a; apply Fin.ext
    match a with
    | ⟨0, _⟩ =>
      show win0_0.index t (0 : Fin 2) * 128 + 1 * r.val = win0_2.index t (0 : Fin 3) * 128 + 1 * r.val
      omega
    | ⟨1, _⟩ =>
      show win0_0.index t (1 : Fin 2) * 128 + 1 * s.val = win0_2.index t (1 : Fin 3) * 128 + 1 * s.val
      omega
  rw [hvec, hsc]

/-- An index of the output array is in point `t`'s block iff each coordinate is in the block's range on its axis. -/
theorem mem_block (t : Fin cfg0.N) (i : S4096x512x64.Idx) :
    i ∈ ((cfg0.win 2).blk t).view.set ↔ ∀ a : Fin 3, win0_2.index t a * S128x128x64.size a ≤ (i a).val
      ∧ (i a).val < win0_2.index t a * S128x128x64.size a + S128x128x64.size a := by
  show i ∈ ((View.whole main_v0).slice (win0_2.rect t)).set ↔ _
  rw [View.set_slice_whole, Rect.mem_set_unit]
  exact Iff.rfl

/-- The blocks tile the output: index (b, i, e) is in the block of the point whose block is (b / 128, i / 128, 0). -/
theorem covered (i : S4096x512x64.Idx) :
    ∃ t : Fin cfg0.N, (cfg0.win 2).flush t = true ∧ i ∈ ((cfg0.win 2).blk t).view.set := by
  have hi0 : (i 0).val < 4096 := (i 0).isLt
  have hi1 : (i 1).val < 512 := (i 1).isLt
  have hi2 : (i 2).val < 64 := (i 2).isLt
  obtain ⟨t, ht⟩ := every_block ⟨(i 0).val / 128, by omega⟩ ⟨(i 1).val / 128, by omega⟩
  have q0 : win0_2.index t (0 : Fin 3) = (i 0).val / 128 := congrFun ht 0
  have q1 : win0_2.index t (1 : Fin 3) = (i 1).val / 128 := congrFun ht 1
  have q2 : win0_2.index t (2 : Fin 3) = 0 := congrFun ht 2
  refine ⟨t, flush0_2 t, ?_⟩
  rw [mem_block]
  intro a
  match a with
  | ⟨0, _⟩ =>
    show win0_2.index t (0 : Fin 3) * 128 ≤ (i 0).val ∧ (i 0).val < win0_2.index t (0 : Fin 3) * 128 + 128
    omega
  | ⟨1, _⟩ =>
    show win0_2.index t (1 : Fin 3) * 128 ≤ (i 1).val ∧ (i 1).val < win0_2.index t (1 : Fin 3) * 128 + 128
    omega
  | ⟨2, _⟩ =>
    show win0_2.index t (2 : Fin 3) * 64 ≤ (i 2).val ∧ (i 2).val < win0_2.index t (2 : Fin 3) * 64 + 64
    omega

/-- After the run the output array is `scaled` of the two argument arrays. -/
theorem final (c : Dev nD) :
    (dats m 0 c).arrAt 2 cfg0.N
      = scaled (m ((c : Thread nD τ).loc main_arg0)) (m ((c : Thread nD τ).loc main_arg1)) :=
  (dats m 0 c).arrAt_eq_of_cover 2 (scaled (V m c main_arg0) (V m c main_arg1))
    (fun t _ => flushed_eq m c t) covered

/-- The kernel's run: every weakly fair execution ends with the result array at `scaled` of the arguments and the
    arguments unchanged. -/
theorem run : θ_run defs (onTc (τ := τ) (main (F := F))) ⟨m, fun _ => 0, ρ⟩ fun r => ∀ c : Dev nD,
      r.2.mem ((c : Thread nD τ).loc main_v0)
        = scaled (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.EmbedScale.Kernel

end
-- ==== Proof.lean ====
/-
  The kernel multiplies every 64-entry vector C[b, i, :] by the scalar x[b, i], block by block over a 32 × 4 grid of
  128 × 128 positions; the reference does it in one broadcast product. Both end with the array

      scaled x C (b, i, e) = C (b, i, e) · x (b, i)

  (Proof/Scaled.lean), the same two numbers meeting in the same order in every product, so the two results are equal
  entry by entry for every reading of the multiplication — in particular on the extended reals — and without using
  that the inputs are finite. The kernel's side: one block of the product (Proof/BlockScaled.lean), then the blocks
  tile the array (Proof/ArrayScaled.lean). The reference's side: its three host operations read at an index
  (Proof/RefScaled.lean). The three programs terminate with their arguments unchanged by their generated runs, and
  the idealized kernel is the kernel's own text (no operation was rewritten), so that conjunct asks nothing.
-/
import proofs.«146885_j23141283791086_2_alg».proof.Defs
import proofs.«146885_j23141283791086_2_alg».proof.Proof.Gen.Kernel
import proofs.«146885_j23141283791086_2_alg».proof.Proof.Gen.Kernel.Skeleton
import proofs.«146885_j23141283791086_2_alg».proof.Proof.Gen.Kernel.Launch
import proofs.«146885_j23141283791086_2_alg».proof.Proof.Gen.Kernel.Points
import proofs.«146885_j23141283791086_2_alg».proof.Proof.Gen.Kernel.Frame
import proofs.«146885_j23141283791086_2_alg».proof.Proof.Gen.KernelIdeal
import proofs.«146885_j23141283791086_2_alg».proof.Proof.Gen.KernelIdeal.Skeleton
import proofs.«146885_j23141283791086_2_alg».proof.Proof.Gen.KernelIdeal.Launch
import proofs.«146885_j23141283791086_2_alg».proof.Proof.Gen.KernelIdeal.Points
import proofs.«146885_j23141283791086_2_alg».proof.Proof.Gen.KernelIdeal.Frame
import proofs.«146885_j23141283791086_2_alg».proof.Proof.Gen.ReferenceIdeal
import proofs.«146885_j23141283791086_2_alg».proof.Proof.Gen.KernelIdeal.Value
import proofs.«146885_j23141283791086_2_alg».proof.Proof.Gen.ReferenceIdeal.Run
import proofs.«146885_j23141283791086_2_alg».proof.Proof.Gen.ReferenceIdeal.Read
import proofs.«146885_j23141283791086_2_alg».proof.Proof.Gen.Pre_finite_inputs
import proofs.«146885_j23141283791086_2_alg».proof.Proof.Scaled
import proofs.«146885_j23141283791086_2_alg».proof.Proof.RefScaled
import proofs.«146885_j23141283791086_2_alg».proof.Proof.BlockScaled
import proofs.«146885_j23141283791086_2_alg».proof.Proof.ArrayScaled
import Idealize.ShloMosaic.Adequacy
import Idealize.ShloMosaic.Init

noncomputable section

namespace Cert.Proof

open Idealize.ShloMosaic Idealize.ShloMosaic.TcCoe Idealize.SL.Sem

/-- The kernel as printed terminates and leaves its arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- And the reference: its run, with what it says of the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- From memories that agree on x and C, the kernel's result array and the reference's are both `scaled x C`. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.EmbedScale.scaled (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.EmbedScale.Kernel.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.EmbedScale.Reference.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
